-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x3 : Shape := ⟨3, ![16, 3, 3]⟩
abbrev S16x3 : Shape := ⟨2, ![16, 3]⟩
abbrev S16x2048x3 : Shape := ⟨3, ![16, 2048, 3]⟩
abbrev S_ : Shape := ⟨0, ![]⟩

class Facts : Prop where
  bcast_S_S16x3x3 : S_.BroadcastsInDim S16x3x3 (![] : Fin 0 → Fin S16x3x3.rank)
  reducesTo_S16x3x3_S_d0_1_2 : S16x3x3.ReducesTo [0, 1, 2] S_
  h_S_ : 0 < S_.numel
  bcast_S_S16x3 : S_.BroadcastsInDim S16x3 (![] : Fin 0 → Fin S16x3.rank)
  reducesTo_S16x3_S_d0_1 : S16x3.ReducesTo [0, 1] S_
  bcast_S_S16x2048x3 : S_.BroadcastsInDim S16x2048x3 (![] : Fin 0 → Fin S16x2048x3.rank)
  reducesTo_S16x2048x3_S_d0_1_2 : S16x2048x3.ReducesTo [0, 1, 2] S_

variable [Facts]

def fn_part1 {F : FTy → Type} [FloatOps F] (main_arg4 : FVec F S16x2048x3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S16x2048x3 .f32 := Host.absf main_arg4
  let main_cst_6 : FVec F S_ .f32 := constant S_ .f32 0x7F800000#32
  let main_v20 : FVec F S16x2048x3 .f32 := broadcastInDim S16x2048x3 ![] bcast_S_S16x2048x3 main_cst_6
  let main_v21 : IVec S16x2048x3 1 := cmpf .olt main_v19 main_v20
  let main_c_7 : IVec S_ 1 := constantI S_ 1 1#1
  let main_v22 : IVec S_ 1 := (fun x v => Host.reduce IntOp.andi x v reducesTo_S16x2048x3_S_d0_1_2 h_S_) main_v21 main_c_7
  let main_v23 : IVec S_ 1 := andi main_v18 main_v22
  main_v23

def fn {F : FTy → Type} [FloatOps F] (main_arg0 : FVec F S16x3x3 .f32) (main_arg1 : FVec F S16x3 .f32) (main_arg2 : FVec F S16x3x3 .f32) (main_arg3 : FVec F S16x3 .f32) (main_arg4 : FVec F S16x2048x3 .f32) : IVec S_ 1 :=
  let main_v0 : FVec F S16x3x3 .f32 := Host.absf main_arg0
  let main_cst : FVec F S_ .f32 := constant S_ .f32 0x7F800000#32
  let main_v1 : FVec F S16x3x3 .f32 := broadcastInDim S16x3x3 ![] bcast_S_S16x3x3 main_cst
  let main_v2 : IVec S16x3x3 1 := cmpf .olt main_v0 main_v1
  let main_c : IVec S_ 1 := constantI S_ 1 1#1
  let main_v3 : IVec S_ 1 := (fun x v => Host.reduce IntOp.andi x v reducesTo_S16x3x3_S_d0_1_2 h_S_) main_v2 main_c
  let main_v4 : FVec F S16x3 .f32 := Host.absf main_arg1
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16x3x3 .f32 := Host.absf main_arg2
  let main_cst_2 : FVec F S_ .f32 := constant S_ .f32 0x7F800000#32
  let main_v10 : FVec F S16x3x3 .f32 := broadcastInDim S16x3x3 ![] bcast_S_S16x3x3 main_cst_2
  let main_v11 : IVec S16x3x3 1 := cmpf .olt main_v9 main_v10
  let main_c_3 : IVec S_ 1 := constantI S_ 1 1#1
  let main_v12 : IVec S_ 1 := (fun x v => Host.reduce IntOp.andi x v reducesTo_S16x3x3_S_d0_1_2 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg4 main_v13 main_v16
-- ==== Kernel.lean ====
abbrev S16x3x3 : Shape := ⟨3, ![16, 3, 3]⟩
abbrev S16x3 : Shape := ⟨2, ![16, 3]⟩
abbrev S16x2048x3 : Shape := ⟨3, ![16, 2048, 3]⟩
abbrev S16x1x3 : Shape := ⟨3, ![16, 1, 3]⟩
abbrev S16x3x2048 : Shape := ⟨3, ![16, 3, 2048]⟩
abbrev S16x2048x1 : Shape := ⟨3, ![16, 2048, 1]⟩
abbrev S16x1x2048 : Shape := ⟨3, ![16, 1, 2048]⟩
abbrev S1x1024x3 : Shape := ⟨3, ![1, 1024, 3]⟩
abbrev S1x3x2048 : Shape := ⟨3, ![1, 3, 2048]⟩
abbrev S1x1024x1 : Shape := ⟨3, ![1, 1024, 1]⟩
abbrev S1x1x2048 : Shape := ⟨3, ![1, 1, 2048]⟩
abbrev S1024x3 : Shape := ⟨2, ![1024, 3]⟩
abbrev S3x2048 : Shape := ⟨2, ![3, 2048]⟩
abbrev S1024x2048 : Shape := ⟨2, ![1024, 2048]⟩
abbrev S1024x1 : Shape := ⟨2, ![1024, 1]⟩
abbrev S1x2048 : Shape := ⟨2, ![1, 2048]⟩
abbrev S1024 : Shape := ⟨1, ![1024]⟩
abbrev S2048 : Shape := ⟨1, ![2048]⟩
abbrev S16x2048 : Shape := ⟨2, ![16, 2048]⟩
abbrev S_ : Shape := ⟨0, ![]⟩
abbrev S16 : Shape := ⟨1, ![16]⟩

abbrev nBuf : Space → Nat
  | .hbm => 41
  | .vmem => 8
  | .smem => 0
  | _ => 0

abbrev bufTy : (tb : Table) → Fin (tcTables nBuf tb) → BufTy
  | .hbm, ⟨0, _⟩ => ⟨S16x3x3, .f32⟩
  | .hbm, ⟨1, _⟩ => ⟨S16x3, .f32⟩
  | .hbm, ⟨2, _⟩ => ⟨S16x3x3, .f32⟩
  | .hbm, ⟨3, _⟩ => ⟨S16x3, .f32⟩
  | .hbm, ⟨4, _⟩ => ⟨S16x2048x3, .f32⟩
  | .hbm, ⟨5, _⟩ => ⟨S16x2048x3, .f32⟩
  | .hbm, ⟨6, _⟩ => ⟨S16x1x3, .f32⟩
  | .hbm, ⟨7, _⟩ => ⟨S16x2048x3, .f32⟩
  | .hbm, ⟨8, _⟩ => ⟨S16x2048x3, .f32⟩
  | .hbm, ⟨9, _⟩ => ⟨S16x2048x3, .f32⟩
  | .hbm, ⟨10, _⟩ => ⟨S16x1x3, .f32⟩
  | .hbm, ⟨11, _⟩ => ⟨S16x2048x3, .f32⟩
  | .hbm, ⟨12, _⟩ => ⟨S16x2048x3, .f32⟩
  | .hbm, ⟨13, _⟩ => ⟨S16x3x2048, .f32⟩
  | .hbm, ⟨14, _⟩ => ⟨S16x2048x1, .f32⟩
  | .hbm, ⟨15, _⟩ => ⟨S16x1x2048, .f32⟩
  | .hbm, ⟨16, _⟩ => ⟨S16x2048, .f32⟩
  | .hbm, ⟨17, _⟩ => ⟨S_, .f32⟩
  | .hbm, ⟨18, _⟩ => ⟨S16x2048, .f32⟩
  | .hbm, ⟨19, _⟩ => ⟨S16x2048, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1024x1, .f32⟩
  | .local _ .vmem, ⟨5, _⟩ => ⟨S1x1024x1, .f32⟩
  | .local _ .vmem, ⟨6, _⟩ => ⟨S1x1x2048, .f32⟩
  | .local _ .vmem, ⟨7, _⟩ => ⟨S1x1x2048, .f32⟩
  | _, _ => ⟨S16x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16x3_S16x1x3_0_2 : S16x3.BroadcastsInDim S16x1x3 (![0, 2] : Fin 2 → Fin S16x1x3.rank)
  bcast_S16x1x3_S16x2048x3_0_1_2 : S16x1x3.BroadcastsInDim S16x2048x3 (![0, 1, 2] : Fin 3 → Fin S16x2048x3.rank)
  transposes_S16x2048x3_S16x3x2048_0_2_1 : S16x2048x3.Transposes [0, 2, 1] S16x3x2048
  inb_S1x1x2048_S1x1x2048_0_0_0 : ∀ a, (![0, 0, 0] : Fin 3 → Nat) a + S1x1x2048.size a ≤ S1x1x2048.size a
  h_S1x1x2048 : 0 < S1x1x2048.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S1024x3_o0_0_S1024x1 : S1024x3.Slices ![0, 0] S1024x1
  slices_S3x2048_o0_0_S1x2048 : S3x2048.Slices ![0, 0] S1x2048
  broadcasts_S1024x1_S1024x2048 : S1024x1.Broadcasts S1024x2048
  broadcasts_S1x2048_S1024x2048 : S1x2048.Broadcasts S1024x2048
  slices_S1024x3_o0_1_S1024x1 : S1024x3.Slices ![0, 1] S1024x1
  slices_S3x2048_o1_0_S1x2048 : S3x2048.Slices ![1, 0] S1x2048
  slices_S1024x3_o0_2_S1024x1 : S1024x3.Slices ![0, 2] S1024x1
  slices_S3x2048_o2_0_S1x2048 : S3x2048.Slices ![2, 0] S1x2048
  reduces_S1024x2048_S1024 : S1024x2048.Reduces [1] S1024
  shapeCasts_S1024_S1024x1 : S1024.ShapeCasts S1024x1
  reduces_S1024x2048_S2048 : S1024x2048.Reduces [0] S2048
  shapeCasts_S2048_S1x2048 : S2048.ShapeCasts S1x2048
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S1x1x2048_S1x2048 : S1x1x2048.ShapeCasts S1x2048
  shapeCasts_S1x2048_S1x1x2048 : S1x2048.ShapeCasts S1x1x2048
  shapeCasts_S16x2048x1_S16x2048 : S16x2048x1.ShapeCasts S16x2048
  bcast_S_S16x2048 : S_.BroadcastsInDim S16x2048 (![] : Fin 0 → Fin S16x2048.rank)
  shapeCasts_S16x1x2048_S16x2048 : S16x1x2048.ShapeCasts S16x2048
  reducesTo_S16x2048_S16_d1 : S16x2048.ReducesTo [1] S16
  h_S_ : 0 < S_.numel
  bcast_S_S16 : S_.BroadcastsInDim S16 (![] : Fin 0 → Fin S16.rank)
  reducesTo_S16_S_d0 : S16.ReducesTo [0] S_
  dot_S16x2048x3_S16x3x3_S16x2048x3_2_2_1_1_0_0_wf : DotDims.WF S16x2048x3 S16x3x3 S16x2048x3 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x2048x3.size a
  hwx0_0 : ∀ i : grid0.Coords, EltTy.bits .f32 = 32 ∨ (Rect.block (s := S16x2048x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S16x3x2048.size a
  hwx0_1 : ∀ i : grid0.Coords, EltTy.bits .f32 = 32 ∨ (Rect.block (s := S16x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x2048x1.size a
  hwx0_2 : ∀ i : grid0.Coords, EltTy.bits .f32 = 32 ∨ (Rect.block (s := S16x2048x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)

variable [Facts₀]

def dot_S16x2048x3_S16x3x3_S16x2048x3_2_2_1_1_0_0 : DotDims S16x2048x3 S16x3x3 S16x2048x3 where
  lhsContracting := [2]
  rhsContracting := [2]
  lhsNonContracting := [1]
  rhsNonContracting := [1]
  lhsBatch := [0]
  rhsBatch := [0]
  wf := dot_S16x2048x3_S16x3x3_S16x2048x3_2_2_1_1_0_0_wf

abbrev win0_0 : Pipeline.Window sig grid0 :=
  Pipeline.Window.ofSpec (Memref.whole main_v3) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x3 : Shape := ⟨3, ![16, 3, 3]⟩
abbrev S16x3 : Shape := ⟨2, ![16, 3]⟩
abbrev S16x2048x3 : Shape := ⟨3, ![16, 2048, 3]⟩
abbrev S16x1x3 : Shape := ⟨3, ![16, 1, 3]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S16x2048 : Shape := ⟨2, ![16, 2048]⟩
abbrev S16 : Shape := ⟨1, ![16]⟩

abbrev nBuf : Space → Nat
  | .hbm => 44
  | .vmem => 0
  | .smem => 0
  | _ => 0

abbrev bufTy : (tb : Table) → Fin (tcTables nBuf tb) → BufTy
  | .hbm, ⟨0, _⟩ => ⟨S16x3x3, .f32⟩
  | .hbm, ⟨1, _⟩ => ⟨S16x3, .f32⟩
  | .hbm, ⟨2, _⟩ => ⟨S16x3x3, .f32⟩
  | .hbm, ⟨3, _⟩ => ⟨S16x3, .f32⟩
  | .hbm, ⟨4, _⟩ => ⟨S16x2048x3, .f32⟩
  | .hbm, ⟨5, _⟩ => ⟨S16x2048x3, .f32⟩
  | .hbm, ⟨6, _⟩ => ⟨S16x1x3, .f32⟩
  | .hbm, ⟨7, _⟩ => ⟨S16x2048x3, .f32⟩
  | .hbm, ⟨8, _⟩ => ⟨S16x2048x3, .f32⟩
  | .hbm, ⟨9, _⟩ => ⟨S16x2048x3, .f32⟩
  | .hbm, ⟨10, _⟩ => ⟨S16x1x3, .f32⟩
  | .hbm, ⟨11, _⟩ => ⟨S16x2048x3, .f32⟩
  | .hbm, ⟨12, _⟩ => ⟨S16x2048x3, .f32⟩
  | .hbm, ⟨13, _⟩ => ⟨S16x2048x1x3, .f32⟩
  | .hbm, ⟨14, _⟩ => ⟨S16x1x2048x3, .f32⟩
  | .hbm, ⟨15, _⟩ => ⟨S16x2048x2048x3, .f32⟩
  | .hbm, ⟨16, _⟩ => ⟨S16x2048x2048x3, .f32⟩
  | .hbm, ⟨17, _⟩ => ⟨S16x2048x2048x3, .f32⟩
  | .hbm, ⟨18, _⟩ => ⟨S16x2048x2048x3, .f32⟩
  | .hbm, ⟨19, _⟩ => ⟨S_, .f32⟩
  | .hbm, ⟨20, _⟩ => ⟨S16x2048x2048, .f32⟩
  | .hbm, ⟨21, _⟩ => ⟨S_, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S_, .f32⟩
  | .hbm, ⟨28, _⟩ => ⟨S16x2048, .f32⟩
  | .hbm, ⟨29, _⟩ => ⟨S_, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S16x3_S16x1x3_0_2 : S16x3.BroadcastsInDim S16x1x3 (![0, 2] : Fin 2 → Fin S16x1x3.rank)
  bcast_S16x1x3_S16x2048x3_0_1_2 : S16x1x3.BroadcastsInDim S16x2048x3 (![0, 1, 2] : Fin 3 → Fin S16x2048x3.rank)
  bcast_S16x2048x3_S16x2048x1x3_0_1_3 : S16x2048x3.BroadcastsInDim S16x2048x1x3 (![0, 1, 3] : Fin 3 → Fin S16x2048x1x3.rank)
  bcast_S16x2048x3_S16x1x2048x3_0_2_3 : S16x2048x3.BroadcastsInDim S16x1x2048x3 (![0, 2, 3] : Fin 3 → Fin S16x1x2048x3.rank)
  bcast_S16x2048x1x3_S16x2048x2048x3_0_1_2_3 : S16x2048x1x3.BroadcastsInDim S16x2048x2048x3 (![0, 1, 2, 3] : Fin 4 → Fin S16x2048x2048x3.rank)
  bcast_S16x1x2048x3_S16x2048x2048x3_0_1_2_3 : S16x1x2048x3.BroadcastsInDim S16x2048x2048x3 (![0, 1, 2, 3] : Fin 4 → Fin S16x2048x2048x3.rank)
  reducesTo_S16x2048x2048x3_S16x2048x2048_d3 : S16x2048x2048x3.ReducesTo [3] S16x2048x2048
  h_S_ : 0 < S_.numel
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048x2048_S16x2048_d1 : S16x2048x2048.ReducesTo [1] S16x2048
  reducesTo_S16x2048_S16_d1 : S16x2048.ReducesTo [1] S16
  bcast_S_S16 : S_.BroadcastsInDim S16 (![] : Fin 0 → Fin S16.rank)
  reducesTo_S16_S_d0 : S16.ReducesTo [0] S_
  dot_S16x2048x3_S16x3x3_S16x2048x3_2_2_1_1_0_0_wf : DotDims.WF S16x2048x3 S16x3x3 S16x2048x3 [2] [2] [1] [1] [0] [0]

variable [Facts₀]

def dot_S16x2048x3_S16x3x3_S16x2048x3_2_2_1_1_0_0 : DotDims S16x2048x3 S16x3x3 S16x2048x3 where
  lhsContracting := [2]
  rhsContracting := [2]
  lhsNonContracting := [1]
  rhsNonContracting := [1]
  lhsBatch := [0]
  rhsBatch := [0]
  wf := dot_S16x2048x3_S16x3x3_S16x2048x3_2_2_1_1_0_0_wf

class Facts : Prop extends Facts₀ where

variable [Facts]
-- ==== Proof.BodyPieces.lean ====
/-
  What one run of the kernel body leaves in its two output blocks, as values.

  The body loads a block of 1024 points of the first cloud and all 2048 points of the second (coordinates as rows), forms
  the 1024 × 2048 table of squared distances, and stores (i) the minimum of every row and (ii) the block of column minima
  lowered by this tile's column minima — after first resetting that block to `+∞` when the tile is the first of its batch.
  Each stored block is one covering store, so what the block holds afterwards is that store's value, a pure function of
  the blocks loaded.
-/
import proofs.«161927_j88390426951951_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl

/-- The block of row minima the body stores: the same in both cases, a function of the two input blocks only. -/
theorem out_A_2 (c : Dev nD) (i : grid0.Coords) (a2 : Memref sig .tc .vmem S1x1024x3 .f32) (h2 : a2.IsWhole) (a3 : Memref sig .tc .vmem S1x3x2048 .f32) (h3 : a3.IsWhole)
    (a4 : Memref sig .tc .vmem S1x1024x1 .f32) (h4 : a4.IsWhole) (a5 : Memref sig .tc .vmem S1x1x2048 .f32) (h5 : a5.IsWhole) (hc : cond0_0 i)
    (x0 : Vec F S1x1024x3 .f32) (x1 : Vec F S1x3x2048 .f32) :
    out0_A_2 c i a2 h2 a3 h3 a4 h4 a5 h5 hc x0 x1 = k0_pay4 x0 x1 := by
  unfold out0_A_2
  rw [View.read_writes_eq_canon _ _ _ (cover0_A_2 c i a2 h2 a3 h3 a4 h4 a5 h5 hc x0 x1)]
  unfold kernelRun0_A
  dsimp only
  rw [View.canon_unit_zero hz3]
  simp only [View.readAt_eq_ld, h2.read_unread, h3.read_unread, View.ld_unit_zero (S := S1x1024x3) hz3,
    View.ld_unit_zero (S := S1x3x2048) hz3]

theorem out_B_2 (c : Dev nD) (i : grid0.Coords) (a2 : Memref sig .tc .vmem S1x1024x3 .f32) (h2 : a2.IsWhole) (a3 : Memref sig .tc .vmem S1x3x2048 .f32) (h3 : a3.IsWhole)
    (a4 : Memref sig .tc .vmem S1x1024x1 .f32) (h4 : a4.IsWhole) (a5 : Memref sig .tc .vmem S1x1x2048 .f32) (h5 : a5.IsWhole) (hc : ¬cond0_0 i)
    (x0 : Vec F S1x1024x3 .f32) (x1 : Vec F S1x3x2048 .f32) (xo : Vec F S1x1x2048 .f32) :
    out0_B_2 c i a2 h2 a3 h3 a4 h4 a5 h5 hc x0 x1 xo = k0_pay4 x0 x1 := by
  unfold out0_B_2
  rw [View.read_writes_eq_canon _ _ _ (cover0_B_2 c i a2 h2 a3 h3 a4 h4 a5 h5 hc x0 x1 xo)]
  unfold kernelRun0_B
  dsimp only
  rw [View.canon_unit_zero hz3]
  simp only [View.readAt_eq_ld, h2.read_unread, h3.read_unread, View.ld_unit_zero (S := S1x1024x3) hz3,
    View.ld_unit_zero (S := S1x3x2048) hz3]

/-- At the first row tile of a batch the body first fills the block of column minima with `+∞` and then lowers it by
    this tile's column minima. -/
theorem out_A_3 (c : Dev nD) (i : grid0.Coords) (a2 : Memref sig .tc .vmem S1x1024x3 .f32) (h2 : a2.IsWhole) (a3 : Memref sig .tc .vmem S1x3x2048 .f32) (h3 : a3.IsWhole)
    (a4 : Memref sig .tc .vmem S1x1024x1 .f32) (h4 : a4.IsWhole) (a5 : Memref sig .tc .vmem S1x1x2048 .f32) (h5 : a5.IsWhole) (hc : cond0_0 i)
    (x0 : Vec F S1x1024x3 .f32) (x1 : Vec F S1x3x2048 .f32) :
    out0_A_3 c i a2 h2 a3 h3 a4 h4 a5 h5 hc x0 x1 = k0_pay1 (k0_pay5 x0 x1 (k0_pay2 (F := F))) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, View.ld_unit_zero (S := S1x1024x3) hz3,
    View.ld_unit_zero (S := S1x3x2048) hz3]

/-- At a later row tile the body lowers the block of column minima it finds by this tile's column minima. -/
theorem out_B_3 (c : Dev nD) (i : grid0.Coords) (a2 : Memref sig .tc .vmem S1x1024x3 .f32) (h2 : a2.IsWhole) (a3 : Memref sig .tc .vmem S1x3x2048 .f32) (h3 : a3.IsWhole)
    (a4 : Memref sig .tc .vmem S1x1024x1 .f32) (h4 : a4.IsWhole) (a5 : Memref sig .tc .vmem S1x1x2048 .f32) (h5 : a5.IsWhole) (hc : ¬cond0_0 i)
    (x0 : Vec F S1x1024x3 .f32) (x1 : Vec F S1x3x2048 .f32) (xo : Vec F S1x1x2048 .f32) :
    out0_B_3 c i a2 h2 a3 h3 a4 h4 a5 h5 hc x0 x1 xo = k0_pay1 (k0_pay5 x0 x1 xo) := by
  unfold out0_B_3
  rw [View.read_writes_eq_canon _ _ _ (cover0_B_3 c i a2 h2 a3 h3 a4 h4 a5 h5 hc x0 x1 xo)]
  unfold kernelRun0_B
  dsimp only
  sl_unfold_words
  rw [View.canon_unit_zero hz3]
  simp only [View.readAt_eq_ld, h2.read_unread, h3.read_unread, h5.read_unread, View.ld_unit_zero (S := S1x1024x3) hz3,
    View.ld_unit_zero (S := S1x3x2048) hz3, View.ld_unit_zero (S := S1x1x2048) hz3]

end Cert.KernelIdeal.Body

end
-- ==== Proof.LibMinFold.lean ====
/-
  Minima on the extended reals: order facts, and one-axis minimum reductions read as folds.

  * The extended square root is monotone on ALL extended reals (below zero it is the bottom element, at `⊤` it is `⊤`),
    so is `x ↦ √(x + e)`, and a monotone map commutes with a finite fold of `min`: taking the minimum of a family and
    then applying the map gives the minimum of the mapped family. No finiteness is needed anywhere.
  * A fold of `min` from `⊤` is characterised by its lower bounds (`z ≤ fold ↔ z ≤ every member`), which is how
    two differently grouped minima over the same family are shown equal.
  * A vector unit's minimum reduction over one axis, and the host's minimum reduction over one axis, are each the fold
    of `min` from the initial value over that axis's coordinates.
-/
import Idealize.ShloMosaic.PureOps.Ideal
import Idealize.ShloMosaic.PureOps.Ideal.Laws
import Idealize.ShloMosaic.PureOps.Reduce

namespace Cert.Lib.MinFold

open Idealize.ShloMosaic

/-- The extended square root is monotone: `⊥` below zero, `√` on the nonnegative reals, `⊤` at `⊤`. -/
theorem sqrt_mono : Monotone Ideal.sqrt := by
  intro x y hxy
  induction x using EReal.rec with
  | bot => simp
  | top =>
    have hy : y = ⊤ := top_le_iff.mp hxy
    subst hy; exact le_rfl
  | coe r =>
    induction y using EReal.rec with
    | bot => exact absurd hxy (by simp)
    | top => simp
    | coe s =>
      have hrs : r ≤ s := EReal.coe_le_coe_iff.mp hxy
      simp only [Ideal.sqrt_coe]
      split_ifs with h1 h2
      · exact le_rfl
      · exact bot_le
      · exfalso; linarith
      · exact EReal.coe_le_coe_iff.mpr (Real.sqrt_le_sqrt hrs)

/-- Shifting by a constant and then taking the square root is monotone. -/
theorem sqrtShift_mono (e : EReal) : Monotone fun x : EReal => Ideal.sqrt (x + e) :=
  sqrt_mono.comp fun _ _ h => add_le_add_left h e

/-- The shifted square root keeps `⊤`, for a shift that is not `⊥`. -/
theorem sqrtShift_top {e : EReal} (he : e ≠ ⊥) : Ideal.sqrt (⊤ + e) = ⊤ := by
  rw [EReal.top_add_of_ne_bot he]; rfl

/-- A monotone map commutes with a finite fold of `min`. -/
theorem map_fold_min {ι : Type*} (f : EReal → EReal) (hf : Monotone f) (s : Finset ι) (b : EReal) (g : ι → EReal) :
    f (s.fold min b g) = s.fold min (f b) (fun i => f (g i)) :=
  (Finset.fold_hom (op := min) (op' := min) (m := f) fun _ _ => hf.map_min).symm

/-- A fold of `min` from `⊤` is determined by what lies below it. -/
theorem le_fold_min_top {ι : Type*} (s : Finset ι) (g : ι → EReal) (z : EReal) :
    z ≤ s.fold min ⊤ g ↔ ∀ i ∈ s, z ≤ g i := by
  rw [Finset.le_fold_min]; exact ⟨fun h => h.2, fun h => ⟨le_top, h⟩⟩

/-- Two extended reals with the same lower bounds are equal. -/
theorem eq_of_le_iff {x y : EReal} (h : ∀ z, z ≤ x ↔ z ≤ y) : x = y :=
  le_antisymm ((h x).mp le_rfl) ((h y).mpr le_rfl)

variable {φ : FTy}

/-- A float `vector.multi_reduction <minimumf>` over one axis, read on the extended reals: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a minimum body over one axis, read on the extended reals: the fold of
    `min` from the initial value over that axis's coordinates. -/
theorem hostReduce_minimumf_single {s t u : Shape} {a : Fin s.rank} (x : s.Idx → Ideal φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

end Cert.Lib.MinFold
-- ==== Proof.DistanceTable.lean ====
/-
  The table of squared distances the kernel body builds from one block of each cloud, read entry by entry, and its row and
  column minima read as folds of `min`.

  With `x0` the block of 1024 points of the first cloud (point `r`, coordinate `j` at `(0, r, j)`) and `x1` the second
  cloud with coordinates as rows (coordinate `j` of point `p` at `(0, j, p)`), entry `(r, p)` of the table is
  `((0 + d₀²) + d₁²) + d₂²` with `dⱼ = x0(0, r, j) − x1(0, j, p)`, the three squares added in coordinate order.
  The stored row minima are `min over p` of row `r`; the block of column minima is lowered, entry by entry, by
  `min over r` of column `p`. Both minima start from `+∞`.
-/
import proofs.«161927_j88390426951951_2_alg».proof.Proof.Gen.KernelIdeal.Skeleton
import proofs.«161927_j88390426951951_2_alg».proof.Proof.LibMinFold
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Table

open Cert.KernelIdeal Cert.KernelIdeal.Gen Cert.Lib.MinFold

section Layout
variable {α : Type}

/-- A column spread over a matrix's columns reads, at `(r, p)`, the column at `r`. -/
theorem colBroadcast_apply {a b : ℕ} (v : (⟨2, ![a, 1]⟩ : Shape).Idx → α)
    (h : (⟨2, ![a, 1]⟩ : Shape).Broadcasts ⟨2, ![a, b]⟩) (r : Fin a) (p : Fin b) :
    broadcastTo ⟨2, ![a, b]⟩ v h (ix2 r p) = v (ix2 r (0 : Fin 1)) := by
  refine broadcastTo_apply v h (ix2 r p) (ix2 r (0 : Fin 1)) fun ax => ?_
  match ax with
  | ⟨0, _⟩ =>
    show r.val = if a = 1 then 0 else r.val
    split
    · have := r.isLt; omega
    · rfl
  | ⟨1, _⟩ => rfl

/-- A vector cast to a column reads, at `(r, 0)`, the vector at `r`. -/
theorem shapeCast_a_a1_apply {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_one, Shape.rowMajor_val_two]
    show r.val = r.val * 1 + u.val
    rw [hu]; omega)

/-- Coordinate `k` of the first block's points, spread over the table's columns: at `(r, p)` it is point `r`'s. -/
theorem spreadRows (x0 : S1x1024x3.Idx → α) (o : Nat) (k : Fin 3) (hk : k.val = o)
    (hc : S1x1024x3.ShapeCasts S1024x3) (hs : S1024x3.Slices ![0, o] S1024x1) (hb : S1024x1.Broadcasts S1024x2048)
    (r : Fin 1024) (p : Fin 2048) :
    broadcastTo S1024x2048 (extractStridedSlice S1024x1 ![0, o] (shapeCast S1024x3 x0 hc) hs) hb (ix2 r p)
      = x0 (ix3 (0 : Fin 1) r k) := by
  rw [colBroadcast_apply, slice2_axis1_apply o _ hs r (0 : Fin 1) k (by simp [hk]), shapeCast_1ab_ab_apply]

/-- Coordinate `k` of the second cloud's points, spread over the table's rows: at `(r, p)` it is point `p`'s. -/
theorem spreadCols (x1 : S1x3x2048.Idx → α) (o : Nat) (k : Fin 3) (hk : k.val = o)
    (hc : S1x3x2048.ShapeCasts S3x2048) (hs : S3x2048.Slices ![o, 0] S1x2048) (hb : S1x2048.Broadcasts S1024x2048)
    (r : Fin 1024) (p : Fin 2048) :
    broadcastTo S1024x2048 (extractStridedSlice S1x2048 ![o, 0] (shapeCast S3x2048 x1 hc) hs) hb (ix2 r p)
      = x1 (ix3 (0 : Fin 1) k p) := by
  rw [broadcastTo_1b_ab_apply, slice2_axis0_apply o _ hs (0 : Fin 1) p k (by simp [hk]), shapeCast_1ab_ab_apply]

end Layout

/-- The word `0x7F800000` is `+∞`. -/
theorem ofBits_inf : Ideal.ofBits .f32 0x7F800000#32 = (⊤ : EReal) := by
  simp [Ideal.ofBits, Ideal.ieee]

/-- Entry `(r, p)` of the table: the squared distance between point `r` of the block and point `p` of the second cloud, the three
    squared coordinate differences added to zero in coordinate order. -/
def entry (x0 : S1x1024x3.Idx → EReal) (x1 : S1x3x2048.Idx → EReal) (r : Fin 1024) (p : Fin 2048) : EReal :=
  ((0 + (x0 (ix3 (0 : Fin 1) r (0 : Fin 3)) - x1 (ix3 (0 : Fin 1) (0 : Fin 3) p)) * (x0 (ix3 (0 : Fin 1) r (0 : Fin 3)) - x1 (ix3 (0 : Fin 1) (0 : Fin 3) p)))
    + (x0 (ix3 (0 : Fin 1) r (1 : Fin 3)) - x1 (ix3 (0 : Fin 1) (1 : Fin 3) p)) * (x0 (ix3 (0 : Fin 1) r (1 : Fin 3)) - x1 (ix3 (0 : Fin 1) (1 : Fin 3) p)))
    + (x0 (ix3 (0 : Fin 1) r (2 : Fin 3)) - x1 (ix3 (0 : Fin 1) (2 : Fin 3) p)) * (x0 (ix3 (0 : Fin 1) r (2 : Fin 3)) - x1 (ix3 (0 : Fin 1) (2 : Fin 3) p))

/-- The body's table, read at an entry. -/
theorem table_apply (x0 : Vec Ideal S1x1024x3 .f32) (x1 : Vec Ideal S1x3x2048 .f32) (r : Fin 1024) (p : Fin 2048) :
    k0_pay3 x0 x1 (ix2 r p) = entry x0 x1 r p := by
  unfold k0_pay3
  simp only [addf_apply, mulf_apply, subf_apply, broadcast_apply]
  rw [spreadRows x0 0 0 rfl, spreadRows x0 1 1 rfl, spreadRows x0 2 2 rfl,
    spreadCols x1 0 0 rfl, spreadCols x1 1 1 rfl, spreadCols x1 2 2 rfl]
  show Ideal.ofBits .f32 0x00000000#32 + _ + _ + _ = _
  rw [Ideal.ofBits_zero_f32]
  rfl

/-- Inserting column `p` into row `r` names entry `(r, p)`. -/
theorem lift_row (r : Fin 1024) (p : Fin 2048) : reduces_S1024x2048_S1024.lift (ix1 r) p = ix2 r p :=
  funext fun a => Fin.ext (by match a with | ⟨0, _⟩ => rfl | ⟨1, _⟩ => rfl)

/-- Inserting row `r` into column `p` names entry `(r, p)`. -/
theorem lift_col (p : Fin 2048) (r : Fin 1024) : reduces_S1024x2048_S2048.lift (ix1 p) r = ix2 r p :=
  funext fun a => Fin.ext (by match a with | ⟨0, _⟩ => rfl | ⟨1, _⟩ => rfl)

/-- The minimum of row `r` of the table, from `+∞`. -/
def rowMin (x0 : S1x1024x3.Idx → EReal) (x1 : S1x3x2048.Idx → EReal) (r : Fin 1024) : EReal :=
  (Finset.univ : Finset (Fin 2048)).fold min ⊤ fun p => entry x0 x1 r p

/-- The minimum of column `p` of the table, from `+∞`. -/
def colMin (x0 : S1x1024x3.Idx → EReal) (x1 : S1x3x2048.Idx → EReal) (p : Fin 2048) : EReal :=
  (Finset.univ : Finset (Fin 1024)).fold min ⊤ fun r => entry x0 x1 r p

/-- The stored block of row minima, read at row `r`. -/
theorem rowMins_apply (x0 : Vec Ideal S1x1024x3 .f32) (x1 : Vec Ideal S1x3x2048 .f32) (u : Fin 1) (r : Fin 1024) (v : Fin 1) :
    k0_pay4 x0 x1 (ix3 u r v) = rowMin x0 x1 r := by
  unfold k0_pay4
  rw [shapeCast_ab_1ab_apply, shapeCast_a_a1_apply]
  refine (multiReduction_minimumf_single (k0_pay3 x0 x1) 0x7F800000#32 reduces_S1024x2048_S1024 _ _ (ix1 r)).trans ?_
  show (Finset.univ : Finset (Fin 2048)).fold min (Ideal.ofBits .f32 0x7F800000#32)
    (fun p => k0_pay3 x0 x1 (reduces_S1024x2048_S1024.lift (ix1 r) p)) = _
  rw [ofBits_inf]
  exact Finset.fold_congr fun (p : Fin 2048) _ => (congrArg (k0_pay3 x0 x1) (lift_row r p)).trans (table_apply x0 x1 r p)

/-- The block of column minima after the body, read at column `p`: what it held before, lowered by the column's minimum. -/
theorem colMins_apply (x0 : Vec Ideal S1x1024x3 .f32) (x1 : Vec Ideal S1x3x2048 .f32) (xo : Vec Ideal S1x1x2048 .f32)
    (u v : Fin 1) (p : Fin 2048) :
    k0_pay1 (k0_pay5 x0 x1 xo) (ix3 u v p) = min (xo (ix3 (0 : Fin 1) v p)) (colMin x0 x1 p) := by
  unfold k0_pay1 k0_pay5
  rw [shapeCast_ab_1ab_apply, minimumf_apply, shapeCast_1ab_ab_apply, shapeCast_a_1a_apply]
  refine congrArg (min _) ?_
  refine (multiReduction_minimumf_single (k0_pay3 x0 x1) 0x7F800000#32 reduces_S1024x2048_S2048 _ _ (ix1 p)).trans ?_
  show (Finset.univ : Finset (Fin 1024)).fold min (Ideal.ofBits .f32 0x7F800000#32)
    (fun r => k0_pay3 x0 x1 (reduces_S1024x2048_S2048.lift (ix1 p) r)) = _
  rw [ofBits_inf]
  exact Finset.fold_congr fun (r : Fin 1024) _ => (congrArg (k0_pay3 x0 x1) (lift_col p r)).trans (table_apply x0 x1 r p)

/-- The reset block is `+∞` everywhere. -/
theorem reset_apply (i : S1x1x2048.Idx) : (k0_pay2 (F := Ideal)) i = (⊤ : EReal) := by
  unfold k0_pay2
  show Ideal.ofBits .f32 0x7F800000#32 = _
  exact ofBits_inf

end Cert.KernelIdeal.Table

end
-- ==== Proof.NearestSquares.lean ====
/-
  The two arrays of smallest squared distances, as functions of the two point clouds.

  `X` is the first cloud (batch `b`, point `q`, coordinate `j` at `(b, q, j)`), `Yt` the second with coordinates as rows
  (coordinate `j` of point `p` at `(b, j, p)`). `sqDist X Yt b q p` is the squared distance between point `q` of the first and
  point `p` of the second, the three squared coordinate differences added to zero in coordinate order. `toSecond` holds,
  for every point of the first cloud, the smallest squared distance to the second cloud; `toFirst` the same with the clouds'
  roles exchanged. Every minimum starts from `+∞`.

  A minimum over all 2048 points is the minimum over the first 1024 lowered by the minimum over the last 1024: that is how
  a result accumulated over two tiles of rows is the full column minimum.
-/
import proofs.«161927_j88390426951951_2_alg».proof.Proof.LibMinFold
import Idealize.ShloMosaic.Lib.ValueIdx

noncomputable section

open Idealize.ShloMosaic Idealize.ShloMosaic.ValueIdx

namespace Cert.Chamfer

open Cert.Lib.MinFold

/-- The first cloud: batch, point, coordinate. -/
abbrev SX : Shape := ⟨3, ![16, 2048, 3]⟩
/-- The second cloud with coordinates as rows: batch, coordinate, point. -/
abbrev SYt : Shape := ⟨3, ![16, 3, 2048]⟩
/-- One value per point of the first cloud, as a column. -/
abbrev SRow : Shape := ⟨3, ![16, 2048, 1]⟩
/-- One value per point of the second cloud, as a row. -/
abbrev SCol : Shape := ⟨3, ![16, 1, 2048]⟩

/-- The squared distance between point `q` of the first cloud and point `p` of the second, in batch `b`. -/
def sqDist (X : SX.Idx → EReal) (Yt : SYt.Idx → EReal) (b : Fin 16) (q p : Fin 2048) : EReal :=
  ((0 + (X (ix3 b q (0 : Fin 3)) - Yt (ix3 b (0 : Fin 3) p)) * (X (ix3 b q (0 : Fin 3)) - Yt (ix3 b (0 : Fin 3) p)))
    + (X (ix3 b q (1 : Fin 3)) - Yt (ix3 b (1 : Fin 3) p)) * (X (ix3 b q (1 : Fin 3)) - Yt (ix3 b (1 : Fin 3) p)))
    + (X (ix3 b q (2 : Fin 3)) - Yt (ix3 b (2 : Fin 3) p)) * (X (ix3 b q (2 : Fin 3)) - Yt (ix3 b (2 : Fin 3) p))

/-- For point `q` of the first cloud: the smallest squared distance to a point of the second. -/
def toSecond (X : SX.Idx → EReal) (Yt : SYt.Idx → EReal) (b : Fin 16) (q : Fin 2048) : EReal :=
  (Finset.univ : Finset (Fin 2048)).fold min ⊤ fun p => sqDist X Yt b q p

/-- For point `p` of the second cloud: the smallest squared distance to a point of the first. -/
def toFirst (X : SX.Idx → EReal) (Yt : SYt.Idx → EReal) (b : Fin 16) (p : Fin 2048) : EReal :=
  (Finset.univ : Finset (Fin 2048)).fold min ⊤ fun q => sqDist X Yt b q p

/-- `toSecond` laid out as a column per batch. -/
def toSecondCol (X : SX.Idx → EReal) (Yt : SYt.Idx → EReal) : SRow.Idx → EReal := fun i => toSecond X Yt (i 0) (i 1)

/-- `toFirst` laid out as a row per batch. -/
def toFirstRow (X : SX.Idx → EReal) (Yt : SYt.Idx → EReal) : SCol.Idx → EReal := fun i => toFirst X Yt (i 0) (i 2)

/-- Row `r` of the first tile of 1024 rows. -/
abbrev lowRow (r : Fin 1024) : Fin 2048 := ⟨r.val, by have := r.isLt; omega⟩
/-- Row `r` of the second tile of 1024 rows. -/
abbrev highRow (r : Fin 1024) : Fin 2048 := ⟨1024 + r.val, by have := r.isLt; omega⟩

/-- The minimum over all 2048 rows is `+∞` lowered by the minimum over the first 1024 and then by the minimum over the last 1024. -/
theorem fold_min_two_tiles (g : Fin 2048 → EReal) :
    min (min ⊤ ((Finset.univ : Finset (Fin 1024)).fold min ⊤ fun r => g (lowRow r)))
        ((Finset.univ : Finset (Fin 1024)).fold min ⊤ fun r => g (highRow r))
      = (Finset.univ : Finset (Fin 2048)).fold min ⊤ g := by
  refine eq_of_le_iff fun z => ?_
  simp only [le_min_iff, le_fold_min_top, Finset.mem_univ, true_implies, le_top, true_and]
  constructor
  · rintro ⟨h0, h1⟩ q
    by_cases hq : q.val < 1024
    · exact h0 ⟨q.val, hq⟩
    · have hq' := q.isLt
      have e : q = highRow ⟨q.val - 1024, by omega⟩ := Fin.ext (by show q.val = 1024 + (q.val - 1024); omega)
      rw [e]; exact h1 _
  · intro h
    exact ⟨fun r => h _, fun r => h _⟩

end Cert.Chamfer

end
-- ==== Proof.OutputArrays.lean ====
/-
  The kernel's two output arrays after the run, as functions of the two clouds the region is entered with.

  Grid point `t` is row tile `t % 2` of batch `t / 2`. Its table is built from rows `1024 (t % 2) …` of the first cloud's batch
  and the whole second cloud's batch, so its row minima are the smallest squared distances of those 1024 points to the second
  cloud, and they are written back at once. The block of column minima stays in place over the two tiles of a batch: `+∞`,
  lowered by the first tile's column minima, then by the second's — the minimum over all 2048 rows — and is written back after
  the second tile. The blocks written back tile both output arrays.
-/
import proofs.«161927_j88390426951951_2_alg».proof.Proof.Gen.KernelIdeal.Frame
import proofs.«161927_j88390426951951_2_alg».proof.Proof.BodyPieces
import proofs.«161927_j88390426951951_2_alg».proof.Proof.DistanceTable
import proofs.«161927_j88390426951951_2_alg».proof.Proof.NearestSquares
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Body Cert.KernelIdeal.Table Cert.Chamfer Cert.Lib.MinFold

variable (m : (ℓ : Loc nD τ sig) → Buf (Elt Ideal) ℓ) (ρ : Dev nD → PrngReg)

/-- The printed index maps, decided once over the grid: point `t` is row tile `t % 2` of batch `t / 2`; the first cloud's
    block and the block of row minima move with the tile, the second cloud's block and the block of column minima with the batch. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- The batch of grid point `t`. -/
abbrev batchOf (t : Fin cfg0.N) : Fin 16 := ⟨t.val / 2, by have := t.isLt; have hN : cfg0.N = 32 := N_0; omega⟩
/-- Row `r` of point `t`'s tile, as a row of the whole cloud. -/
abbrev rowOf (t : Fin cfg0.N) (r : Fin 1024) : Fin 2048 := ⟨1024 * (t.val % 2) + r.val, by have := r.isLt; omega⟩

/-- The first cloud's block at point `t`, read at a point and a coordinate. -/
theorem iblk0_apply (c : Dev nD) (t : Fin cfg0.N) (u : Fin 1) (r : Fin 1024) (j : Fin 3) :
    (iblk m c 0 t : Vec Ideal S1x1024x3 .f32) (ix3 u r j) = V m c main_v3 (ix3 (batchOf t) (rowOf t r) j) := by
  obtain ⟨e0, e1, e2, -⟩ := idx_facts t
  unfold iblk
  rw [View.read_apply]
  show V m c main_v3 _ = _
  refine congrArg (V m c main_v3) (funext fun a => Fin.ext ?_)
  have hu := u.isLt
  match a with
  | ⟨0, _⟩ => show win0_0.index t (0 : Fin 3) * 1 + 1 * u.val = t.val / 2; omega
  | ⟨1, _⟩ => show win0_0.index t (1 : Fin 3) * 1024 + 1 * r.val = 1024 * (t.val % 2) + r.val; omega
  | ⟨2, _⟩ => show win0_0.index t (2 : Fin 3) * 3 + 1 * j.val = j.val; omega

/-- The second cloud's block at point `t`, read at a coordinate and a point. -/
theorem iblk1_apply (c : Dev nD) (t : Fin cfg0.N) (u : Fin 1) (j : Fin 3) (p : Fin 2048) :
    (iblk m c 1 t : Vec Ideal S1x3x2048 .f32) (ix3 u j p) = V m c main_v8 (ix3 (batchOf t) j p) := by
  obtain ⟨-, -, -, e0, e1, e2, -⟩ := idx_facts t
  unfold iblk
  rw [View.read_apply]
  show V m c main_v8 _ = _
  refine congrArg (V m c main_v8) (funext fun a => Fin.ext ?_)
  have hu := u.isLt
  match a with
  | ⟨0, _⟩ => show win0_1.index t (0 : Fin 3) * 1 + 1 * u.val = t.val / 2; omega
  | ⟨1, _⟩ => show win0_1.index t (1 : Fin 3) * 3 + 1 * j.val = j.val; omega
  | ⟨2, _⟩ => show win0_1.index t (2 : Fin 3) * 2048 + 1 * p.val = p.val; omega

/-- An entry of the table built from point `t`'s blocks is a squared distance between points of the two whole clouds. -/
theorem entry_blocks (c : Dev nD) (t : Fin cfg0.N) (r : Fin 1024) (p : Fin 2048) :
    entry (iblk m c 0 t) (iblk m c 1 t) r p = sqDist (V m c main_v3) (V m c main_v8) (batchOf t) (rowOf t r) p := by
  unfold entry sqDist
  rw [iblk0_apply, iblk0_apply, iblk0_apply, iblk1_apply, iblk1_apply, iblk1_apply]

/-! ## What the two output blocks hold after the body at a point -/

/-- After any point the block of row minima is the row minima of that point's table. -/
theorem outs_rows (c : Dev nD) (t : Fin cfg0.N) :
    (outsAt0 m c t.val t.isLt).1 = k0_pay4 (iblk m c 0 t) (iblk m c 1 t) := by
  by_cases h0 : t.val % 2 = 0
  · rw [outsAt0_A m c t h0]
    dsimp only
    exact out_A_2 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)
  · rw [outsAt0_B m c t h0]
    dsimp only
    exact out_B_2 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) _

/-- After the first tile of a batch the block of column minima is `+∞` lowered by that tile's column minima. -/
theorem outs_cols_first (c : Dev nD) (t : Fin cfg0.N) (h0 : t.val % 2 = 0) :
    (outsAt0 m c t.val t.isLt).2 = k0_pay1 (k0_pay5 (iblk m c 0 t) (iblk m c 1 t) (k0_pay2 (F := Ideal))) := by
  rw [outsAt0_A m c t h0]
  dsimp only
  exact out_A_3 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)

/-- After the second tile it is what the first tile left, lowered by the second tile's column minima. -/
theorem outs_cols_second (c : Dev nD) (t : Fin cfg0.N) (h0 : ¬t.val % 2 = 0) :
    (outsAt0 m c t.val t.isLt).2 = k0_pay1 (k0_pay5 (iblk m c 0 t) (iblk m c 1 t)
      (outsAt0 m c (t.val - 1) (Nat.lt_of_le_of_lt (Nat.sub_le _ _) t.isLt)).2) := by
  rw [outsAt0_B m c t h0]
  dsimp only
  exact out_B_3 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) _

/-- The row minima of point `t`'s table are the first cloud's smallest squared distances to the second, for the tile's points. -/
theorem rows_value (c : Dev nD) (t : Fin cfg0.N) (u : Fin 1) (r : Fin 1024) (v : Fin 1) :
    (outsAt0 m c t.val t.isLt).1 (ix3 u r v) = toSecond (V m c main_v3) (V m c main_v8) (batchOf t) (rowOf t r) := by
  rw [outs_rows]
  refine (rowMins_apply (iblk m c 0 t) (iblk m c 1 t) u r v).trans ?_
  unfold rowMin toSecond
  exact Finset.fold_congr fun p _ => entry_blocks m c t r p

/-- After the second tile of a batch the block of column minima holds the second cloud's smallest squared distances to the
    whole first cloud: `+∞` lowered by the first tile's and then by the second tile's column minima. -/
theorem cols_value (c : Dev nD) (t : Fin cfg0.N) (h1 : t.val % 2 = 1) (u v : Fin 1) (p : Fin 2048) :
    (outsAt0 m c t.val t.isLt).2 (ix3 u v p) = toFirst (V m c main_v3) (V m c main_v8) (batchOf t) p := by
  have hN : cfg0.N = 32 := N_0
  have ht := t.isLt
  have h0 : ¬t.val % 2 = 0 := by omega
  let t' : Fin cfg0.N := ⟨t.val - 1, Nat.lt_of_le_of_lt (Nat.sub_le _ _) t.isLt⟩
  have h0' : t'.val % 2 = 0 := by show (t.val - 1) % 2 = 0; omega
  rw [outs_cols_second m c t h0]
  refine (colMins_apply (iblk m c 0 t) (iblk m c 1 t) _ u v p).trans ?_
  have e' : (outsAt0 m c (t.val - 1) (Nat.lt_of_le_of_lt (Nat.sub_le _ _) t.isLt)).2 (ix3 (0 : Fin 1) v p)
      = min ⊤ (colMin (iblk m c 0 t') (iblk m c 1 t') p) := by
    refine (congrFun (outs_cols_first m c t' h0') (ix3 (0 : Fin 1) v p)).trans ?_
    refine (colMins_apply (iblk m c 0 t') (iblk m c 1 t') _ (0 : Fin 1) v p).trans ?_
    rw [reset_apply]
  rw [e']
  unfold colMin toFirst
  have hb : batchOf t' = batchOf t := Fin.ext (by show (t.val - 1) / 2 = t.val / 2; omega)
  have hlow : ∀ r : Fin 1024, rowOf t' r = lowRow r := fun r => Fin.ext (by show 1024 * ((t.val - 1) % 2) + r.val = r.val; omega)
  have hhigh : ∀ r : Fin 1024, rowOf t r = highRow r := fun r => Fin.ext (by show 1024 * (t.val % 2) + r.val = 1024 + r.val; omega)
  rw [← fold_min_two_tiles fun q => sqDist (V m c main_v3) (V m c main_v8) (batchOf t) q p]
  refine congrArg₂ min (congrArg (min ⊤) (Finset.fold_congr fun r _ => ?_)) (Finset.fold_congr fun r _ => ?_)
  · rw [entry_blocks, hb, hlow]
  · rw [entry_blocks, hhigh]

/-! ## What each point writes back, and the two arrays after the run -/

/-- An index of the array of row minima lies in point `t`'s block iff each coordinate lies in the block's range on its axis. -/
theorem mem_blk_rows (t : Fin cfg0.N) (i : S16x2048x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v9_0).slice (win0_2.rect t)).set ↔ _
  rw [View.set_slice_whole, Rect.mem_set_unit]
  exact Iff.rfl

/-- The same for the array of column minima. -/
theorem mem_blk_cols (t : Fin cfg0.N) (i : S16x1x2048.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v9_1).slice (win0_3.rect t)).set ↔ _
  rw [View.set_slice_whole, Rect.mem_set_unit]
  exact Iff.rfl

/-- Every point writes back its block of the column of smallest squared distances to the second cloud. -/
theorem flushed_rows (c : Dev nD) (t : Fin cfg0.N) :
    (dats m 0 c).flushed 2 t
      = ((cfg0.win 2).blk t).view.read (Elt Ideal) (toSecondCol (V m c main_v3) (V m c main_v8)) := by
  show (cfg0.win 2).cut (grid0.coords t) ((dats m 0 c).after 2 t) = _
  rw [after0_2]
  obtain ⟨-, -, -, -, -, -, e0, e1, e2, -⟩ := idx_facts t
  refine funext fun (y : S1x1024x1.Idx) => ?_
  obtain ⟨u, r, v, rfl⟩ : ∃ (u : Fin 1) (r : Fin 1024) (v : Fin 1), y = ix3 u r v := ⟨y 0, y 1, y 2, eq_ix3 y⟩
  refine (rows_value m c t u r v).trans ?_
  rw [View.read_apply]
  unfold toSecondCol
  have hu := u.isLt
  have hv := v.isLt
  refine congrArg₂ (toSecond (V m c main_v3) (V m c main_v8)) (Fin.ext ?_) (Fin.ext ?_)
  · show t.val / 2 = win0_2.index t (0 : Fin 3) * 1 + 1 * u.val; omega
  · show 1024 * (t.val % 2) + r.val = win0_2.index t (1 : Fin 3) * 1024 + 1 * r.val; omega

/-- The second tile of every batch writes back that batch's row of smallest squared distances to the first cloud. -/
theorem flushed_cols (c : Dev nD) (t : Fin cfg0.N) (hf : (cfg0.win 3).flush t = true) :
    (dats m 0 c).flushed 3 t
      = ((cfg0.win 3).blk t).view.read (Elt Ideal) (toFirstRow (V m c main_v3) (V m c main_v8)) := by
  have h1 : t.val % 2 = 1 := (flush0_3 t).mp hf
  show (cfg0.win 3).cut (grid0.coords t) ((dats m 0 c).after 3 t) = _
  rw [after0_3]
  obtain ⟨-, -, -, -, -, -, -, -, -, e0, e1, e2⟩ := idx_facts t
  refine funext fun (y : S1x1x2048.Idx) => ?_
  obtain ⟨u, v, p, rfl⟩ : ∃ (u : Fin 1) (v : Fin 1) (p : Fin 2048), y = ix3 u v p := ⟨y 0, y 1, y 2, eq_ix3 y⟩
  refine (cols_value m c t h1 u v p).trans ?_
  rw [View.read_apply]
  unfold toFirstRow
  have hu := u.isLt
  have hv := v.isLt
  refine congrArg₂ (toFirst (V m c main_v3) (V m c main_v8)) (Fin.ext ?_) (Fin.ext ?_)
  · show t.val / 2 = win0_3.index t (0 : Fin 3) * 1 + 1 * u.val; omega
  · show p.val = win0_3.index t (2 : Fin 3) * 2048 + 1 * p.val; omega

/-- After the run the first output array holds, for every point of the first cloud, its smallest squared distance to the
    second cloud: point `q` of batch `b` lies in the block of grid point `2 b + q / 1024`. -/
theorem final_rows (c : Dev nD) :
    (dats m 0 c).arrAt 2 cfg0.N = toSecondCol (V m c main_v3) (V m c main_v8) :=
  (dats m 0 c).arrAt_eq_of_cover 2 (toSecondCol (V m c main_v3) (V m c main_v8)) (fun t _ => flushed_rows m c t) fun i => by
    have hN : cfg0.N = 32 := N_0
    have h0 : (i 0).val < 16 := (i 0).isLt
    have h1 : (i 1).val < 2048 := (i 1).isLt
    have h2 : (i 2).val < 1 := (i 2).isLt
    let t : Fin cfg0.N := ⟨2 * (i 0).val + (i 1).val / 1024, by omega⟩
    obtain ⟨-, -, -, -, -, -, e0, e1, e2, -⟩ := idx_facts t
    have ht : t.val = 2 * (i 0).val + (i 1).val / 1024 := rfl
    refine ⟨t, flush0_2 t, (mem_blk_rows t i).mpr fun a => ?_⟩
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1024 ≤ (i 1).val ∧ (i 1).val < win0_2.index t (1 : Fin 3) * 1024 + 1024; omega
    | ⟨2, _⟩ => show win0_2.index t (2 : Fin 3) * 1 ≤ (i 2).val ∧ (i 2).val < win0_2.index t (2 : Fin 3) * 1 + 1; omega

/-- After the run the second output array holds, for every point of the second cloud, its smallest squared distance to the
    first cloud: batch `b`'s row is written back by grid point `2 b + 1`. -/
theorem final_cols (c : Dev nD) :
    (dats m 0 c).arrAt 3 cfg0.N = toFirstRow (V m c main_v3) (V m c main_v8) :=
  (dats m 0 c).arrAt_eq_of_cover 3 (toFirstRow (V m c main_v3) (V m c main_v8)) (fun t hf => flushed_cols m c t hf) fun i => by
    have hN : cfg0.N = 32 := N_0
    have h0 : (i 0).val < 16 := (i 0).isLt
    have h1 : (i 1).val < 1 := (i 1).isLt
    have h2 : (i 2).val < 2048 := (i 2).isLt
    let t : Fin cfg0.N := ⟨2 * (i 0).val + 1, by omega⟩
    obtain ⟨-, -, -, -, -, -, -, -, -, e0, e1, e2⟩ := idx_facts t
    have ht : t.val = 2 * (i 0).val + 1 := rfl
    refine ⟨t, (flush0_3 t).mpr (by omega), (mem_blk_cols t i).mpr fun a => ?_⟩
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 2048 ≤ (i 2).val ∧ (i 2).val < win0_3.index t (2 : Fin 3) * 2048 + 2048; omega

end Cert.KernelIdeal.Blocks

end
-- ==== Proof.ReferenceNearest.lean ====
/-
  The reference's two arrays of nearest-neighbour distances, entry by entry.

  The reference forms, for every batch and every pair (point `q` of the first cloud, point `p` of the second), the number
  `√(squared distance + ε)`, and then takes the minimum over `p` (one array) and over `q` (the other). Since `x ↦ √(x + ε)` is
  monotone on the extended reals and keeps `+∞`, the minimum of these numbers is `√(smallest squared distance + ε)`. The sum
  of the three squared coordinate differences the reference takes in one reduction is the same extended real as adding
  them to zero one after the other.

  The second cloud enters through `Yt`, any array holding it with coordinates as rows.
-/
import proofs.«161927_j88390426951951_2_alg».proof.Proof.Gen.ReferenceIdeal.Read
import proofs.«161927_j88390426951951_2_alg».proof.Proof.NearestSquares
import proofs.«161927_j88390426951951_2_alg».proof.Proof.LibMinFold

noncomputable section

open Idealize.ShloMosaic Idealize.ShloMosaic.ValueIdx

namespace Cert.ReferenceIdeal.Near

open Cert.ReferenceIdeal Cert.ReferenceIdeal.Gen Cert.ReferenceIdeal.Read Cert.Chamfer Cert.Lib.MinFold

/-- The small positive number added under the root. -/
abbrev eps : EReal := Ideal.ofBits .f32 0x322BCC77#32

/-- It is a real number, -/
theorem eps_real : eps = (((11258999 : ℝ) * ((2 : ℝ) ^ 50)⁻¹ : ℝ) : EReal) := by
  simp [Ideal.ofBits, Ideal.ieee]

/-- so it is not `-∞`. -/
theorem eps_ne_bot : eps ≠ ⊥ := by
  rw [eps_real]; exact EReal.coe_ne_bot _

/-- The word `0x7F800000` is `+∞`. -/
theorem ofBits_inf : Ideal.ofBits .f32 0x7F800000#32 = (⊤ : EReal) := by
  simp [Ideal.ofBits, Ideal.ieee]

/-- Through the two broadcasts, the first cloud's entry of pair `(q, p)`, coordinate `k`, is point `q`'s. -/
theorem idx_first (b : Fin 16) (q p : Fin 2048) (k : Fin 3) :
    idx_main_v8 (idx_main_v10 (idx_main_v14 (ix3 b q p) k)) = ix3 b q k :=
  funext fun a => Fin.ext (by match a with | ⟨0, _⟩ => rfl | ⟨1, _⟩ => rfl | ⟨2, _⟩ => rfl)

/-- Through the two broadcasts, the second cloud's entry of pair `(q, p)`, coordinate `k`, is point `p`'s. -/
theorem idx_second (b : Fin 16) (q p : Fin 2048) (k : Fin 3) :
    idx_main_v9 (idx_main_v11 (idx_main_v14 (ix3 b q p) k)) = ix3 b p k :=
  funext fun a => Fin.ext (by match a with | ⟨0, _⟩ => rfl | ⟨1, _⟩ => rfl | ⟨2, _⟩ => rfl)

/-- The reference's number for a pair of points: the root of their squared distance plus `ε`. -/
theorem pair_apply (x0 : (⟨S16x3x3, .f32⟩ : BufTy).Contents (Elt Ideal)) (x1 : (⟨S16x3, .f32⟩ : BufTy).Contents (Elt Ideal)) (x2 : (⟨S16x3x3, .f32⟩ : BufTy).Contents (Elt Ideal)) (x3 : (⟨S16x3, .f32⟩ : BufTy).Contents (Elt Ideal)) (x4 : (⟨S16x2048x3, .f32⟩ : BufTy).Contents (Elt Ideal))
    (Yt : SYt.Idx → EReal)
    (hYt : ∀ (b : Fin 16) (j : Fin 3) (p : Fin 2048), Yt (ix3 b j p) = val_main_v7 (F := Ideal) x2 x3 x4 (ix3 b p j))
    (b : Fin 16) (q p : Fin 2048) :
    val_main_v17 (F := Ideal) x0 x1 x2 x3 x4 (ix3 b q p)
      = Ideal.sqrt (sqDist (val_main_v3 (F := Ideal) x0 x1 x4) Yt b q p + eps) := by
  rw [val_main_v17_apply, val_main_v16_apply, val_main_v14_apply, val_main_v15_apply, val_main_cst_0_apply, val_main_cst_apply,
    Fin.sum_univ_three]
  simp only [val_main_v13_apply, val_main_v12_apply, val_main_v10_apply, val_main_v11_apply, val_main_v8_apply,
    val_main_v9_apply, idx_first, idx_second, ← hYt]
  unfold sqDist
  simp only [Ideal.hostUnary_sqrt_def, Ideal.addf_def, Ideal.subf_def, Ideal.mulf_def, Ideal.ofBits_def,
    Ideal.ofBits_zero_f32, zero_add, add_assoc]

/-- Inserting `p` on the last axis of `(b, q)` names the pair `(q, p)`. -/
theorem lift_last (h : S16x2048x2048.Reduces [2] S16x2048) (b : Fin 16) (q p : Fin 2048) : h.lift (ix2 b q) p = ix3 b q p :=
  funext fun a => Fin.ext (by match a with | ⟨0, _⟩ => rfl | ⟨1, _⟩ => rfl | ⟨2, _⟩ => rfl)

/-- Inserting `q` on the middle axis of `(b, p)` names the pair `(q, p)`. -/
theorem lift_mid (h : S16x2048x2048.Reduces [1] S16x2048) (b : Fin 16) (p q : Fin 2048) : h.lift (ix2 b p) q = ix3 b q p :=
  funext fun a => Fin.ext (by match a with | ⟨0, _⟩ => rfl | ⟨1, _⟩ => rfl | ⟨2, _⟩ => rfl)

/-- The reference's distance from point `q` of the first cloud to the second cloud. -/
theorem toSecond_apply (x0 : (⟨S16x3x3, .f32⟩ : BufTy).Contents (Elt Ideal)) (x1 : (⟨S16x3, .f32⟩ : BufTy).Contents (Elt Ideal)) (x2 : (⟨S16x3x3, .f32⟩ : BufTy).Contents (Elt Ideal)) (x3 : (⟨S16x3, .f32⟩ : BufTy).Contents (Elt Ideal)) (x4 : (⟨S16x2048x3, .f32⟩ : BufTy).Contents (Elt Ideal))
    (Yt : SYt.Idx → EReal)
    (hYt : ∀ (b : Fin 16) (j : Fin 3) (p : Fin 2048), Yt (ix3 b j p) = val_main_v7 (F := Ideal) x2 x3 x4 (ix3 b p j))
    (b : Fin 16) (q : Fin 2048) :
    val_main_v18 (F := Ideal) x0 x1 x2 x3 x4 (ix2 b q)
      = Ideal.sqrt (toSecond (val_main_v3 (F := Ideal) x0 x1 x4) Yt b q + eps) := by
  have hR : S16x2048x2048.Reduces [2] S16x2048 := by decide
  unfold val_main_v18 toSecond
  refine (hostReduce_minimumf_single _ _ reducesTo_S16x2048x2048_S16x2048_d2 hR h_S_ (ix2 b q)).trans ?_
  rw [map_fold_min (fun x => Ideal.sqrt (x + eps)) (sqrtShift_mono eps), sqrtShift_top eps_ne_bot]
  show (Finset.univ : Finset (Fin 2048)).fold min (Ideal.ofBits .f32 0x7F800000#32)
    (fun p => val_main_v17 (F := Ideal) x0 x1 x2 x3 x4 (hR.lift (ix2 b q) p)) = _
  rw [ofBits_inf]
  exact Finset.fold_congr fun (p : Fin 2048) _ =>
    (congrArg (val_main_v17 (F := Ideal) x0 x1 x2 x3 x4) (lift_last hR b q p)).trans (pair_apply x0 x1 x2 x3 x4 Yt hYt b q p)

/-- The reference's distance from point `p` of the second cloud to the first cloud. -/
theorem toFirst_apply (x0 : (⟨S16x3x3, .f32⟩ : BufTy).Contents (Elt Ideal)) (x1 : (⟨S16x3, .f32⟩ : BufTy).Contents (Elt Ideal)) (x2 : (⟨S16x3x3, .f32⟩ : BufTy).Contents (Elt Ideal)) (x3 : (⟨S16x3, .f32⟩ : BufTy).Contents (Elt Ideal)) (x4 : (⟨S16x2048x3, .f32⟩ : BufTy).Contents (Elt Ideal))
    (Yt : SYt.Idx → EReal)
    (hYt : ∀ (b : Fin 16) (j : Fin 3) (p : Fin 2048), Yt (ix3 b j p) = val_main_v7 (F := Ideal) x2 x3 x4 (ix3 b p j))
    (b : Fin 16) (p : Fin 2048) :
    val_main_v19 (F := Ideal) x0 x1 x2 x3 x4 (ix2 b p)
      = Ideal.sqrt (toFirst (val_main_v3 (F := Ideal) x0 x1 x4) Yt b p + eps) := by
  have hR : S16x2048x2048.Reduces [1] S16x2048 := by decide
  unfold val_main_v19 toFirst
  refine (hostReduce_minimumf_single _ _ reducesTo_S16x2048x2048_S16x2048_d1 hR h_S_ (ix2 b p)).trans ?_
  rw [map_fold_min (fun x => Ideal.sqrt (x + eps)) (sqrtShift_mono eps), sqrtShift_top eps_ne_bot]
  show (Finset.univ : Finset (Fin 2048)).fold min (Ideal.ofBits .f32 0x7F800000#32)
    (fun q => val_main_v17 (F := Ideal) x0 x1 x2 x3 x4 (hR.lift (ix2 b p) q)) = _
  rw [ofBits_inf]
  exact Finset.fold_congr fun (q : Fin 2048) _ =>
    (congrArg (val_main_v17 (F := Ideal) x0 x1 x2 x3 x4) (lift_mid hR b p q)).trans (pair_apply x0 x1 x2 x3 x4 Yt hYt b q p)

end Cert.ReferenceIdeal.Near

end
-- ==== Proof.Loss.lean ====
/-
  The kernel's result, and that it is the reference's.

  Both programs end the same way: from two arrays `A`, `B` of distances (one entry per batch and point) they take the mean
  of each over the points, add the two means per batch, and take the mean over the batches (`lossOf`). The kernel's `A` and
  `B` are `√(x + ε)` of its two output arrays of smallest squared distances (cast from a column, respectively a row, per
  batch); the reference's are its two minimum reductions of `√(squared distance + ε)`. Entry by entry both are
  `√(smallest squared distance + ε)`, by the monotonicity of `x ↦ √(x + ε)`; the clouds are the same arrays because both
  programs build them by the same operations from the same arguments.
-/
import proofs.«161927_j88390426951951_2_alg».proof.Defs
import proofs.«161927_j88390426951951_2_alg».proof.Proof.Gen.Kernel.Frame
import proofs.«161927_j88390426951951_2_alg».proof.Proof.Gen.KernelIdeal.Frame
import proofs.«161927_j88390426951951_2_alg».proof.Proof.Gen.ReferenceIdeal.Run
import proofs.«161927_j88390426951951_2_alg».proof.Proof.Gen.ReferenceIdeal.Read
import proofs.«161927_j88390426951951_2_alg».proof.Proof.OutputArrays
import proofs.«161927_j88390426951951_2_alg».proof.Proof.ReferenceNearest
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.KernelIdeal.Blocks Cert.Chamfer Cert.Lib.MinFold

variable (m : (ℓ : Loc nD τ sig) → Buf (Elt Ideal) ℓ) (ρ : Dev nD → PrngReg)

/-- The first cloud as the region finds it: the model points rotated and shifted by the first pose. -/
theorem V_first (c : Dev nD) : (V m c main_v3 : S16x2048x3.Idx → EReal)
    = Cert.ReferenceIdeal.Read.val_main_v3 (F := Ideal) (m ((c.tc : Thread nD τ).loc main_arg0)) (m ((c.tc : Thread nD τ).loc main_arg1))
        (m ((c.tc : Thread nD τ).loc main_arg4)) := by
  show StableHlo.after hostOps0 (fun b => m (c, b)) (Proc.devRef .tc main_v3) = _
  after_results
  rfl

/-- The second cloud as the region finds it: rotated and shifted by the second pose, then coordinates turned into rows. -/
theorem V_second (c : Dev nD) : (V m c main_v8 : S16x3x2048.Idx → EReal)
    = transpose S16x3x2048 [0, 2, 1] (Cert.ReferenceIdeal.Read.val_main_v7 (F := Ideal) (m ((c.tc : Thread nD τ).loc main_arg2))
        (m ((c.tc : Thread nD τ).loc main_arg3)) (m ((c.tc : Thread nD τ).loc main_arg4))) transposes_S16x2048x3_S16x3x2048_0_2_1 := by
  show StableHlo.after hostOps0 (fun b => m (c, b)) (Proc.devRef .tc main_v8) = _
  after_results
  rfl

/-- The common ending: the mean over the points of each array of distances, the two means added per batch, and the mean
    over the batches. -/
def lossOf (A B : S16x2048.Idx → EReal) : S_.Idx → EReal :=
  Host.divf (F := Ideal)
    (Host.reduceAdd (F := Ideal)
      (addf
        (Host.divf (F := Ideal) (Host.reduceAdd (F := Ideal) A (constant (F := Ideal) S_ .f32 0x00000000#32) reducesTo_S16x2048_S16_d1 h_S_)
          (broadcastInDim S16 ![] bcast_S_S16 (constant (F := Ideal) S_ .f32 0x45000000#32)))
        (Host.divf (F := Ideal) (Host.reduceAdd (F := Ideal) B (constant (F := Ideal) S_ .f32 0x00000000#32) reducesTo_S16x2048_S16_d1 h_S_)
          (broadcastInDim S16 ![] bcast_S_S16 (constant (F := Ideal) S_ .f32 0x45000000#32))))
      (constant (F := Ideal) S_ .f32 0x00000000#32) reducesTo_S16_S_d0 h_S_)
    (constant (F := Ideal) S_ .f32 0x41800000#32)

/-- Distances from an array of squared distances laid out as a column per batch: `√(x + ε)` entry by entry. -/
def rootsOfCol (O : S16x2048x1.Idx → EReal) : S16x2048.Idx → EReal :=
  Host.sqrt (F := Ideal) (addf (shapeCast S16x2048 O shapeCasts_S16x2048x1_S16x2048)
    (broadcastInDim S16x2048 ![] bcast_S_S16x2048 (constant (F := Ideal) S_ .f32 0x322BCC77#32)))

/-- The same from an array laid out as a row per batch. -/
def rootsOfRow (O : S16x1x2048.Idx → EReal) : S16x2048.Idx → EReal :=
  Host.sqrt (F := Ideal) (addf (shapeCast S16x2048 O shapeCasts_S16x1x2048_S16x2048)
    (broadcastInDim S16x2048 ![] bcast_S_S16x2048 (constant (F := Ideal) S_ .f32 0x322BCC77#32)))

/-- What the host lines after the region compute: the common ending of the roots of the two output arrays. -/
theorem tail_eq (c : Dev nD) : Pipeline.afterTail₀ cfgs (dats m) 0 (V0 m) [hostOps1] c main_v26
    = lossOf (rootsOfCol ((dats m 0 c).arrAt 2 cfg0.N)) (rootsOfRow ((dats m 0 c).arrAt 3 cfg0.N)) := by
  unfold Pipeline.afterTail₀
  show StableHlo.after hostOps1 (Pipeline.withArrays spec0 c (V0 m c) fun w => (dats m 0 c).arrAt w cfg0.N)
    (Proc.devRef .tc main_v26) = _
  have e2 : Pipeline.withArrays spec0 c (V0 m c) (fun w => (dats m 0 c).arrAt w cfg0.N) (Proc.devRef .tc (Pipeline.arrRef spec0 2))
      = (dats m 0 c).arrAt 2 cfg0.N :=
    Pipeline.withArrays_arr spec0 launch0.win.arr_inj c (V0 m c) (fun w => (dats m 0 c).arrAt w cfg0.N) 2
  have e3 : Pipeline.withArrays spec0 c (V0 m c) (fun w => (dats m 0 c).arrAt w cfg0.N) (Proc.devRef .tc (Pipeline.arrRef spec0 3))
      = (dats m 0 c).arrAt 3 cfg0.N :=
    Pipeline.withArrays_arr spec0 launch0.win.arr_inj c (V0 m c) (fun w => (dats m 0 c).arrAt w cfg0.N) 3
  generalize Pipeline.withArrays spec0 c (V0 m c) (fun w => (dats m 0 c).arrAt w cfg0.N) = W at e2 e3 ⊢
  rw [← e2, ← e3]
  after_results
  rfl

/-- The kernel's result: the common ending of the roots of the two arrays of smallest squared distances between the clouds the
    region is entered with. -/
def result (c : Dev nD) : Buf (Elt Ideal) ((c.tc : Thread nD τ).loc main_v26) :=
  lossOf (rootsOfCol (toSecondCol (V m c main_v3) (V m c main_v8))) (rootsOfRow (toFirstRow (V m c main_v3) (V m c main_v8)))

/-- Every weakly fair execution of the kernel's program ends with its result buffer at `result` and its arguments unchanged. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v26 (Pipeline.mem_restRefs_of main_v26 (by decide) (by decide))).trans
        ((tail_eq m c).trans (by rw [final_rows, final_cols]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

section Read
variable {α : Type}

/-- A column per batch cast to a matrix reads, at `(b, q)`, the column's entry `(b, q, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- A row per batch cast to a matrix reads, at `(b, p)`, the row's entry `(b, 0, p)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Read

open Cert.ReferenceIdeal.Near (eps)

theorem rootsOfCol_apply (O : S16x2048x1.Idx → EReal) (b : Fin 16) (q : Fin 2048) :
    rootsOfCol O (ix2 b q) = Ideal.sqrt (O (ix3 b q (0 : Fin 1)) + eps) := by
  unfold rootsOfCol
  show Ideal.sqrt (shapeCast S16x2048 O shapeCasts_S16x2048x1_S16x2048 (ix2 b q) + eps) = _
  rw [shapeCast_ab1_ab_apply]

theorem rootsOfRow_apply (O : S16x1x2048.Idx → EReal) (b : Fin 16) (p : Fin 2048) :
    rootsOfRow O (ix2 b p) = Ideal.sqrt (O (ix3 b (0 : Fin 1) p) + eps) := by
  unfold rootsOfRow
  show Ideal.sqrt (shapeCast S16x2048 O shapeCasts_S16x1x2048_S16x2048 (ix2 b p) + eps) = _
  rw [shapeCast_a1b_ab_apply]

open Cert.ReferenceIdeal.Read in
/-- The reference's result term, of the same arguments, is the kernel's result. -/
theorem reference_eq (c : Dev nD) :
    val_main_v28 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = result m c := by
  have hYt : ∀ (b : Fin 16) (j : Fin 3) (p : Fin 2048), (V m c main_v8 : S16x3x2048.Idx → EReal) (ix3 b j p)
      = val_main_v7 (F := Ideal) (m ((c.tc : Thread nD τ).loc main_arg2)) (m ((c.tc : Thread nD τ).loc main_arg3))
          (m ((c.tc : Thread nD τ).loc main_arg4)) (ix3 b p j) := fun b j p => by
    rw [V_second]; exact transpose_ix3_021_apply _ _ b j p
  show lossOf (val_main_v18 (F := Ideal) _ _ _ _ _) (val_main_v19 (F := Ideal) _ _ _ _ _) = _
  unfold result
  refine congrArg₂ lossOf (funext fun i => ?_) (funext fun i => ?_)
  · obtain ⟨b, q, rfl⟩ : ∃ (b : Fin 16) (q : Fin 2048), i = ix2 b q := ⟨i 0, i 1, eq_ix2 i⟩
    rw [rootsOfCol_apply, Cert.ReferenceIdeal.Near.toSecond_apply _ _ _ _ _ (V m c main_v8) hYt b q, V_first]
    rfl
  · obtain ⟨b, p, rfl⟩ : ∃ (b : Fin 16) (p : Fin 2048), i = ix2 b p := ⟨i 0, i 1, eq_ix2 i⟩
    rw [rootsOfRow_apply, Cert.ReferenceIdeal.Near.toFirst_apply _ _ _ _ _ (V m c main_v8) hYt b p, V_first]
    rfl

end Cert.KernelIdeal.Loss

end
-- ==== Proof.lean ====
/-
  A bidirectional nearest-neighbour (Chamfer-style) loss between two posed copies of a point cloud, computed two ways.

  Both programs first pose the model points twice (`X = points · R_tᵀ + t_t`, `Y = points · R_prevᵀ + t_prev`, 16 batches of
  2048 points), by the same operations. The reference then forms `√(‖X[b,q] − Y[b,p]‖² + ε)` for every pair, takes the minimum
  over `p` and over `q`, and averages. The kernel instead keeps squared distances: per batch and tile of 1024 points of `X` it
  builds the table of squared distances to all of `Y`, stores each row's minimum, and accumulates the column minima over the two
  tiles; `√(· + ε)` is applied once per entry afterwards, followed by the same averages.

  The two agree on the extended reals, with no assumption on the inputs, because `x ↦ √(x + ε)` is monotone (the extended square
  root is `⊥` below zero and `⊤` at `⊤`) and a monotone map commutes with a finite minimum; the remaining differences — the three
  squares added one by one instead of in one reduction, the column minimum taken in two halves, the second cloud stored with
  coordinates as rows — are re-groupings of the same sums and minima. The finiteness precondition is therefore never opened.

  The three frame claims are the generated frame runs (the reference's is its generated run with the result dropped); the
  idealization rewrote nothing, so `preserves` is trivial.
-/
import proofs.«161927_j88390426951951_2_alg».proof.Defs
import proofs.«161927_j88390426951951_2_alg».proof.Proof.Gen.Kernel
import proofs.«161927_j88390426951951_2_alg».proof.Proof.Gen.Kernel.Skeleton
import proofs.«161927_j88390426951951_2_alg».proof.Proof.Gen.Kernel.Launch
import proofs.«161927_j88390426951951_2_alg».proof.Proof.Gen.Kernel.Points
import proofs.«161927_j88390426951951_2_alg».proof.Proof.Gen.Kernel.Frame
import proofs.«161927_j88390426951951_2_alg».proof.Proof.Gen.KernelIdeal
import proofs.«161927_j88390426951951_2_alg».proof.Proof.Gen.KernelIdeal.Skeleton
import proofs.«161927_j88390426951951_2_alg».proof.Proof.Gen.KernelIdeal.Launch
import proofs.«161927_j88390426951951_2_alg».proof.Proof.Gen.KernelIdeal.Points
import proofs.«161927_j88390426951951_2_alg».proof.Proof.Gen.KernelIdeal.Frame
import proofs.«161927_j88390426951951_2_alg».proof.Proof.Gen.ReferenceIdeal
import proofs.«161927_j88390426951951_2_alg».proof.Proof.Gen.Pre_finite_inputs
import proofs.«161927_j88390426951951_2_alg».proof.Proof.Gen.ReferenceIdeal.Run
import proofs.«161927_j88390426951951_2_alg».proof.Proof.Gen.ReferenceIdeal.Read
import proofs.«161927_j88390426951951_2_alg».proof.Proof.Loss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result buffer ends at the common averaging of `√(smallest squared distance + ε)` in both
    directions, and the reference's result term of arguments that agree is that same value. -/
theorem algebraic : Cert.algebraic_KernelIdeal_ReferenceIdeal := by
  intro m ρ m' ρ' _ hagree
  refine ⟨fun c => Cert.KernelIdeal.Loss.result m c, Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2]
  exact Cert.KernelIdeal.Loss.reference_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
